-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192 : Shape := ⟨2, ![4, 8192]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x3 .f32) (main_arg1 : FVec F S4x8192x3 .f32) (main_arg2 : FVec F S4x8192 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  main_v13
-- ==== Kernel.lean ====
abbrev S4x8192x3 : Shape := ⟨3, ![4, 8192, 3]⟩
abbrev S4x8192 : Shape := ⟨2, ![4, 8192]⟩
abbrev S4x8192x1 : Shape := ⟨3, ![4, 8192, 1]⟩
abbrev S4x1x8192 : Shape := ⟨3, ![4, 1, 8192]⟩
abbrev S1x256x3 : Shape := ⟨3, ![1, 256, 3]⟩
abbrev S1x8192x3 : Shape := ⟨3, ![1, 8192, 3]⟩
abbrev S1x256x1 : Shape := ⟨3, ![1, 256, 1]⟩
abbrev S1x1x8192 : Shape := ⟨3, ![1, 1, 8192]⟩
abbrev S256x3 : Shape := ⟨2, ![256, 3]⟩
abbrev S8192x3 : Shape := ⟨2, ![8192, 3]⟩
abbrev S256 : Shape := ⟨1, ![256]⟩
abbrev S256x1 : Shape := ⟨2, ![256, 1]⟩
abbrev S1x3 : Shape := ⟨2, ![1, 3]⟩
abbrev S1x8192 : Shape := ⟨2, ![1, 8192]⟩
abbrev S256x8192 : Shape := ⟨2, ![256, 8192]⟩
abbrev S8192 : Shape := ⟨1, ![8192]⟩
abbrev S_ : Shape := ⟨0, ![]⟩

abbrev nBuf : Space → Nat
  | .hbm => 30
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x1, .f32⟩
  | .hbm, ⟨4, _⟩ => ⟨S4x1x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x8192x3, .f32⟩
  | .local _ .vmem, ⟨3, _⟩ => ⟨S1x8192x3, .f32⟩
  | .local _ .vmem, ⟨4, _⟩ => ⟨S1x256x1, .f32⟩
  | .local _ .vmem, ⟨5, _⟩ => ⟨S1x256x1, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_cst_4 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_cst_6 : Ref sig .tc := ⟨.hbm, 23, rfl⟩
abbrev main_v9 : Ref sig .tc := ⟨.hbm, 24, rfl⟩
abbrev main_cst_7 : Ref sig .tc := ⟨.hbm, 25, rfl⟩
abbrev main_v10 : Ref sig .tc := ⟨.hbm, 26, rfl⟩
abbrev main_cst_8 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S256x3_S256 : S256x3.Reduces [1] S256
  shapeCasts_S256_S256x1 : S256.ShapeCasts S256x1
  broadcasts_S1x8192_S256x8192 : S1x8192.Broadcasts S256x8192
  reduces_S256x8192_S256 : S256x8192.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  broadcasts_S256x1_S256x8192 : S256x1.Broadcasts S256x8192
  reduces_S256x8192_S8192 : S256x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  reducesTo_S4x8192x1_S_d0_1_2 : S4x8192x1.ReducesTo [0, 1, 2] S_
  h_S_ : 0 < S_.numel
  reducesTo_S4x1x8192_S_d0_1_2 : S4x1x8192.ReducesTo [0, 1, 2] S_
  reducesTo_S4x8192_S_d0_1 : S4x8192.ReducesTo [0, 1] S_
  dot_S1x3_S8192x3_S1x8192_1_1_0_0_n_n_wf : DotDims.WF S1x3 S8192x3 S1x8192 [1] [1] [0] [0] [] []
  dot_S256x3_S8192x3_S256x8192_1_1_0_0_n_n_wf : DotDims.WF S256x3 S8192x3 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x8192x1.size a
  hwx0_2 : ∀ i : grid0.Coords, EltTy.bits .f32 = 32 ∨ (Rect.block (s := S4x8192x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1x3_S8192x3_S1x8192_1_1_0_0_n_n : DotDims S1x3 S8192x3 S1x8192 where
  lhsContracting := [1]
  rhsContracting := [1]
  lhsNonContracting := [0]
  rhsNonContracting := [0]
  lhsBatch := []
  rhsBatch := []
  wf := dot_S1x3_S8192x3_S1x8192_1_1_0_0_n_n_wf
def dot_S256x3_S8192x3_S256x8192_1_1_0_0_n_n : DotDims S256x3 S8192x3 S256x8192 where
  lhsContracting := [1]
  rhsContracting := [1]
  lhsNonContracting := [0]
  rhsNonContracting := [0]
  lhsBatch := []
  rhsBatch := []
  wf := dot_S256x3_S8192x3_S256x8192_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S4x8192 : Shape := ⟨2, ![4, 8192]⟩
abbrev S_ : Shape := ⟨0, ![]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_cst_8 : Ref sig .tc := ⟨.hbm, 32, rfl⟩
abbrev main_v20 : Ref sig .tc := ⟨.hbm, 33, rfl⟩
abbrev main_v21 : Ref sig .tc := ⟨.hbm, 34, rfl⟩
abbrev main_cst_9 : Ref sig .tc := ⟨.hbm, 35, rfl⟩
abbrev main_cst_10 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_cst_11 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_cst_13 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
import proofs.«170560_j3298534884131_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the body leaves in the two output blocks, as pure terms of the blocks it was given.

The row-minimum block (output 2) is in every case the one payload of the point's two input blocks. The column-minimum
block (output 3) is a running minimum: the first tile of a batch starts it from the block of +inf, a middle tile folds
its own column minima into what the tile before left, and the last tile of a batch does the same and then adds the
targets' squared norms and clamps at zero. -/

namespace Cert.KernelIdeal.Pieces
open Cert.KernelIdeal Cert.KernelIdeal.Gen
variable {F : FTy → Type} [FloatOps F]

theorem hz : (![0, 0, 0] : Fin 3 → Nat) = fun _ => 0 := funext fun a => by fin_cases a <;> rfl

/-- Case A: the row-minimum block is the payload of the two input blocks. -/
theorem out_A_2 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : cond0_0 i) (hc1 : ¬cond0_1 i) (x0 : Vec F S1x256x3 .f32) (x1 : Vec F S1x8192x3 .f32) :
    out0_A_2 c i arg2 harg2 arg3 harg3 arg4 harg4 arg5 harg5 hc0 hc1 x0 x1 = k0_pay8 x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_unit_zero hz]
  simp only [View.readAt_eq_ld, harg2.read_unread, harg3.read_unread, harg5.read_unread, View.ld_unit_zero (S := S1x256x3) hz, View.ld_unit_zero (S := S1x8192x3) hz, View.ld_unit_zero (S := S1x1x8192) hz]

/-- Case B: the row-minimum block is the payload of the two input blocks. -/
theorem out_B_2 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : ¬cond0_0 i) (hc1 : ¬cond0_1 i) (x0 : Vec F S1x256x3 .f32) (x1 : Vec F S1x8192x3 .f32) (xo3 : Vec F S1x1x8192 .f32) :
    out0_B_2 c i arg2 harg2 arg3 harg3 arg4 harg4 arg5 harg5 hc0 hc1 x0 x1 xo3 = k0_pay8 x0 x1 := by
  unfold out0_B_2
  rw [View.read_writes_eq_canon _ _ _ (cover0_B_2 c i arg2 harg2 arg3 harg3 arg4 harg4 arg5 harg5 hc0 hc1 x0 x1 xo3)]
  unfold kernelRun0_B
  dsimp only
  sl_unfold_words
  rw [View.canon_unit_zero hz]
  simp only [View.readAt_eq_ld, harg2.read_unread, harg3.read_unread, harg5.read_unread, View.ld_unit_zero (S := S1x256x3) hz, View.ld_unit_zero (S := S1x8192x3) hz, View.ld_unit_zero (S := S1x1x8192) hz]

/-- Case C: the row-minimum block is the payload of the two input blocks. -/
theorem out_C_2 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : ¬cond0_0 i) (hc1 : cond0_1 i) (x0 : Vec F S1x256x3 .f32) (x1 : Vec F S1x8192x3 .f32) (xo3 : Vec F S1x1x8192 .f32) :
    out0_C_2 c i arg2 harg2 arg3 harg3 arg4 harg4 arg5 harg5 hc0 hc1 x0 x1 xo3 = k0_pay8 x0 x1 := by
  unfold out0_C_2
  rw [View.read_writes_eq_canon _ _ _ (cover0_C_2 c i arg2 harg2 arg3 harg3 arg4 harg4 arg5 harg5 hc0 hc1 x0 x1 xo3)]
  unfold kernelRun0_C
  dsimp only
  sl_unfold_words
  rw [View.canon_unit_zero hz]
  simp only [View.readAt_eq_ld, harg2.read_unread, harg3.read_unread, harg5.read_unread, View.ld_unit_zero (S := S1x256x3) hz, View.ld_unit_zero (S := S1x8192x3) hz, View.ld_unit_zero (S := S1x1x8192) hz]

/-- The first tile of a batch: the running column minimum starts from the block of +inf. -/
theorem out_A_3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : cond0_0 i) (hc1 : ¬cond0_1 i) (x0 : Vec F S1x256x3 .f32) (x1 : Vec F S1x8192x3 .f32) :
    out0_A_3 c i arg2 harg2 arg3 harg3 arg4 harg4 arg5 harg5 hc0 hc1 x0 x1 = k0_pay1 (k0_pay10 x0 x1 k0_pay9) := by
  unfold out0_A_3
  rw [View.read_writes_eq_canon _ _ _ (cover0_A_3 c i arg2 harg2 arg3 harg3 arg4 harg4 arg5 harg5 hc0 hc1 x0 x1)]
  unfold kernelRun0_A
  dsimp only
  sl_unfold_words
  rw [View.canon_cons_unit_zero (S := S1x1x8192) hz, View.readCov_unit_zero (S := S1x1x8192) _ hz]
  simp only [View.readAt_eq_ld, harg2.read_unread, harg3.read_unread, harg5.read_unread, View.ld_unit_zero (S := S1x256x3) hz, View.ld_unit_zero (S := S1x8192x3) hz, View.ld_unit_zero (S := S1x1x8192) hz]

/-- A middle tile: the tile's column minima folded into what the tile before left. -/
theorem out_B_3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : ¬cond0_0 i) (hc1 : ¬cond0_1 i) (x0 : Vec F S1x256x3 .f32) (x1 : Vec F S1x8192x3 .f32) (xo3 : Vec F S1x1x8192 .f32) :
    out0_B_3 c i arg2 harg2 arg3 harg3 arg4 harg4 arg5 harg5 hc0 hc1 x0 x1 xo3 = k0_pay1 (k0_pay10 x0 x1 xo3) := by
  unfold out0_B_3
  rw [View.read_writes_eq_canon _ _ _ (cover0_B_3 c i arg2 harg2 arg3 harg3 arg4 harg4 arg5 harg5 hc0 hc1 x0 x1 xo3)]
  unfold kernelRun0_B
  dsimp only
  sl_unfold_words
  rw [View.canon_unit_zero hz]
  simp only [View.readAt_eq_ld, harg2.read_unread, harg3.read_unread, harg5.read_unread, View.ld_unit_zero (S := S1x256x3) hz, View.ld_unit_zero (S := S1x8192x3) hz, View.ld_unit_zero (S := S1x1x8192) hz]

/-- The last tile of a batch: the fold, then the targets' squared norms added and the clamp at zero. -/
theorem out_C_3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (hc0 : ¬cond0_0 i) (hc1 : cond0_1 i) (x0 : Vec F S1x256x3 .f32) (x1 : Vec F S1x8192x3 .f32) (xo3 : Vec F S1x1x8192 .f32) :
    out0_C_3 c i arg2 harg2 arg3 harg3 arg4 harg4 arg5 harg5 hc0 hc1 x0 x1 xo3 = k0_pay2 (k0_pay6 x1) (k0_pay1 (k0_pay10 x0 x1 xo3)) := by
  unfold out0_C_3
  rw [View.read_writes_eq_canon _ _ _ (cover0_C_3 c i arg2 harg2 arg3 harg3 arg4 harg4 arg5 harg5 hc0 hc1 x0 x1 xo3)]
  unfold kernelRun0_C
  dsimp only
  sl_unfold_words
  rw [View.canon_cons_unit_zero (S := S1x1x8192) hz, View.readCov_unit_zero (S := S1x1x8192) _ hz]
  simp only [View.readAt_eq_ld, harg2.read_unread, harg3.read_unread, harg5.read_unread, View.ld_unit_zero (S := S1x256x3) hz, View.ld_unit_zero (S := S1x8192x3) hz, View.ld_unit_zero (S := S1x1x8192) hz]

end Cert.KernelIdeal.Pieces
end
-- ==== Proof.LibMinReduce.lean ====
/-
  Minima of rows, of columns and of a batch of matrices, read at an index, at the extended reals.

  The float minimum-reduction of an [a, b] array over its second axis, from the pattern of +∞, is at row r the fold of
  min from ⊤ over the b entries (r, j) of that row; over its first axis it is at column n the fold of min from ⊤ over
  the a entries (r, n) of that column. The host's one-operand reduce with a minimum body of an [a, b, c] array, from an
  initial value that denotes +∞, over its last axis is at (p, q) the fold over the entries (p, q, j), and over its middle
  axis it is at (p, r) the fold over the entries (p, j, r). All four land on one `Finset.fold min ⊤`, so a kernel's tiled
  minima and a reference's batched ones are compared entry by entry; `le_fold_min_top` is the universal property of
  that fold (a lower bound of the fold is a lower bound of every entry), and `map_fold_min_top` moves a monotone map
  that fixes ⊤ inside it.
-/
import Idealize.ShloMosaic.PureOps.Ideal.Laws
import Idealize.ShloMosaic.Lib.ValueIdx

noncomputable section

namespace Idealize.ShloMosaic.MinReduce

open Idealize.ShloMosaic Idealize.ShloMosaic.ValueIdx

/-- The f32 pattern of +∞ denotes the top of the extended reals. -/
theorem posInf_f32 : Ideal.ofBits .f32 0x7F800000#32 = ⊤ := by simp [Ideal.ofBits, Ideal.ieee]

/-- A lower bound of a fold of min from ⊤ is a lower bound of every entry, and conversely. -/
theorem le_fold_min_top {ι : Type} (s : Finset ι) (f : ι → EReal) (z : EReal) :
    z ≤ s.fold min ⊤ f ↔ ∀ j ∈ s, z ≤ f j := by
  rw [Finset.le_fold_min]
  exact ⟨fun h => h.2, fun h => ⟨le_top, h⟩⟩

/-- A monotone map that fixes ⊤ moves inside a fold of min from ⊤. -/
theorem map_fold_min_top {ι : Type} (s : Finset ι) (f : ι → EReal) (g : EReal → EReal) (hg : Monotone g) (htop : g ⊤ = ⊤) :
    g (s.fold min ⊤ f) = s.fold min ⊤ (fun j => g (f j)) := by
  have h := Finset.fold_hom (op := min) (op' := min) (b := (⊤ : EReal)) (s := s) (f := f) (m := g) (fun x y => hg.map_min)
  rw [htop] at h
  exact h.symm

/-- The index (r, j) of an [a, b] array is the row index r with the column j inserted on the second axis. -/
theorem lift_row {a b : ℕ} (h : Shape.Reduces ⟨2, ![a, b]⟩ [1] ⟨1, ![a]⟩) (r : Fin a) (j : Fin b) :
    h.lift (ix1 r) j = ix2 r j := by
  funext d
  match d with
  | ⟨0, _⟩ => rfl
  | ⟨1, _⟩ => rfl

/-- The index (r, n) of an [a, b] array is the column index n with the row r inserted on the first axis. -/
theorem lift_col {a b : ℕ} (h : Shape.Reduces ⟨2, ![a, b]⟩ [0] ⟨1, ![b]⟩) (n : Fin b) (r : Fin a) :
    h.lift (ix1 n) r = ix2 r n := by
  funext d
  match d with
  | ⟨0, _⟩ => rfl
  | ⟨1, _⟩ => rfl

/-- The vector unit's minimum-reduction of an [a, b] vector over axis 1 from +∞, read at row r. -/
theorem laneMin_apply {a b : ℕ} (src : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).fold min ⊤ (fun j => src (ix2 r j)) := by
  rw [multiReduction_minimumf_eq_fold]
  refine (h.fold_filter_drop_single _ _ src (ix1 r)).trans ?_
  show (Finset.univ : Finset (Fin b)).fold min (Ideal.ofBits .f32 0x7F800000#32) (src ∘ h.lift (ix1 r)) = _
  rw [posInf_f32]
  exact congrArg (fun f => Finset.fold min ⊤ f (Finset.univ : Finset (Fin b))) (funext fun j => congrArg src (lift_row h r j))

/-- The vector unit's minimum-reduction of an [a, b] vector over axis 0 from +∞, read at column n. -/
theorem colMin_apply {a b : ℕ} (src : FVec Ideal ⟨2, ![a, b]⟩ .f32) (h : Shape.Reduces ⟨2, ![a, b]⟩ [0] ⟨1, ![b]⟩)
    (hφ : FKind.Formats .f32) (hacc : (0x7F800000#32 : BitVec 32) = FKind.minimumf.neutral .f32 hφ) (n : Fin b) :
    multiReduction .minimumf [0] ⟨1, ![b]⟩ src 0x7F800000#32 h hφ hacc (ix1 n)
      = (Finset.univ : Finset (Fin a)).fold min ⊤ (fun r => src (ix2 r n)) := by
  rw [multiReduction_minimumf_eq_fold]
  refine (h.fold_filter_drop_single _ _ src (ix1 n)).trans ?_
  show (Finset.univ : Finset (Fin a)).fold min (Ideal.ofBits .f32 0x7F800000#32) (src ∘ h.lift (ix1 n)) = _
  rw [posInf_f32]
  exact congrArg (fun f => Finset.fold min ⊤ f (Finset.univ : Finset (Fin a))) (funext fun r => congrArg src (lift_col h n r))

/-- The index (p, q, j) is the index (p, q) with j inserted on the last axis. -/
theorem lift_last3 {a b c : ℕ} (h : Shape.Reduces ⟨3, ![a, b, c]⟩ [2] ⟨2, ![a, b]⟩) (p : Fin a) (q : Fin b) (j : Fin c) :
    h.lift (ix2 p q) j = ix3 p q j := by
  funext e
  match e with
  | ⟨0, _⟩ => rfl
  | ⟨1, _⟩ => rfl
  | ⟨2, _⟩ => rfl

/-- The index (p, j, r) is the index (p, r) with j inserted on the middle axis. -/
theorem lift_mid3 {a b c : ℕ} (h : Shape.Reduces ⟨3, ![a, b, c]⟩ [1] ⟨2, ![a, c]⟩) (p : Fin a) (r : Fin c) (j : Fin b) :
    h.lift (ix2 p r) j = ix3 p j r := by
  funext e
  match e with
  | ⟨0, _⟩ => rfl
  | ⟨1, _⟩ => rfl
  | ⟨2, _⟩ => rfl

/-- The host's reduce with a minimum body over the last axis of an [a, b, c] array, from +∞, read at (p, q). -/
theorem hostMin_last3_apply {a b c : ℕ} {u : Shape} (x : (⟨3, ![a, b, c]⟩ : Shape).Idx → Ideal .f32) (init : u.Idx → Ideal .f32)
    (h' : Shape.ReducesTo ⟨3, ![a, b, c]⟩ [2] ⟨2, ![a, b]⟩) (h : Shape.Reduces ⟨3, ![a, b, c]⟩ [2] ⟨2, ![a, b]⟩)
    (hu : 0 < u.numel) (hinit : init (Shape.Idx.first hu) = ⊤) (p : Fin a) (q : Fin b) :
    Host.reduce (FloatOps.minimumf (F := Ideal) (φ := .f32)) x init h' hu (ix2 p q)
      = (Finset.univ : Finset (Fin c)).fold min ⊤ (fun j => x (ix3 p q j)) := by
  refine (Host.reduce_eq_fold_single (FloatOps.minimumf (F := Ideal) (φ := .f32)) x init h' h hu (ix2 p q)).trans ?_
  rw [hinit]
  show (Finset.univ : Finset (Fin c)).fold min ⊤ (x ∘ h.lift (ix2 p q)) = _
  exact congrArg (fun f => Finset.fold min ⊤ f (Finset.univ : Finset (Fin c))) (funext fun j => congrArg x (lift_last3 h p q j))

/-- The host's reduce with a minimum body over the middle axis of an [a, b, c] array, from +∞, read at (p, r). -/
theorem hostMin_mid3_apply {a b c : ℕ} {u : Shape} (x : (⟨3, ![a, b, c]⟩ : Shape).Idx → Ideal .f32) (init : u.Idx → Ideal .f32)
    (h' : Shape.ReducesTo ⟨3, ![a, b, c]⟩ [1] ⟨2, ![a, c]⟩) (h : Shape.Reduces ⟨3, ![a, b, c]⟩ [1] ⟨2, ![a, c]⟩)
    (hu : 0 < u.numel) (hinit : init (Shape.Idx.first hu) = ⊤) (p : Fin a) (r : Fin c) :
    Host.reduce (FloatOps.minimumf (F := Ideal) (φ := .f32)) x init h' hu (ix2 p r)
      = (Finset.univ : Finset (Fin b)).fold min ⊤ (fun j => x (ix3 p j r)) := by
  refine (Host.reduce_eq_fold_single (FloatOps.minimumf (F := Ideal) (φ := .f32)) x init h' h hu (ix2 p r)).trans ?_
  rw [hinit]
  show (Finset.univ : Finset (Fin b)).fold min ⊤ (x ∘ h.lift (ix2 p r)) = _
  exact congrArg (fun f => Finset.fold min ⊤ f (Finset.univ : Finset (Fin b))) (funext fun j => congrArg x (lift_mid3 h p r j))

end Idealize.ShloMosaic.MinReduce

end
-- ==== Proof.Spec.lean ====
/-
  The squared-distance algebra behind a nearest-neighbour (chamfer) loss, on the extended reals.

  For two points p, t of three coordinates the reference forms d(p, t) = max(|p|² + |t|² − 2·⟨p, t⟩, 0); the kernel never
  forms d: it contracts (−2·p) against t, adds |t|² (as the contraction of a row of ones against t∘t) and |p|², and clamps
  after minimising. On finite coordinates these are one real number (`dist_row`, `dist_col`), and since x ↦ max(x + c, 0)
  is monotone and fixes +∞ for a finite c, the clamp and the constant summand move inside a minimum (`minx_eq`, `miny_eq`).
  A minimum accumulated tile by tile over consecutive blocks of 256 points is carried by its universal property
  (`run_step`): a lower bound of the running value is a lower bound of every entry seen so far.
-/
import Idealize.ShloMosaic.PureOps.Ideal.Laws
import Idealize.ShloMosaic.Lib.ValueIdx
import proofs.«170560_j3298534884131_2_alg».proof.Proof.LibMinReduce

noncomputable section

namespace Cert.Chamfer

open Idealize.ShloMosaic Idealize.ShloMosaic.ValueIdx Idealize.ShloMosaic.MinReduce

/-- The four float words the two programs splat, as extended reals. -/
abbrev w0 : EReal := Ideal.ofBits .f32 0x00000000#32
abbrev w1 : EReal := Ideal.ofBits .f32 0x3F800000#32
abbrev wNeg2 : EReal := Ideal.ofBits .f32 0xC0000000#32
abbrev w2 : EReal := Ideal.ofBits .f32 0x40000000#32

theorem w0_eq : w0 = ((0 : ℝ) : EReal) := by rw [EReal.coe_zero]; exact Ideal.ofBits_zero_f32
theorem w1_eq : w1 = ((1 : ℝ) : EReal) := by simp [Ideal.ofBits, Ideal.ieee, -EReal.coe_mul]; norm_num
theorem wNeg2_eq : wNeg2 = ((-2 : ℝ) : EReal) := by simp [Ideal.ofBits, Ideal.ieee, -EReal.coe_mul]; norm_num
theorem w2_eq : w2 = ((2 : ℝ) : EReal) := by simp [Ideal.ofBits, Ideal.ieee, -EReal.coe_mul]; norm_num

/-- |p|², as a lane sum of the squares. -/
def sqK (p : Fin 3 → EReal) : EReal := ∑ d, p d * p d
/-- |t|², as the contraction of a row of ones against the squares. -/
def sqOnes (t : Fin 3 → EReal) : EReal := ∑ d, w1 * (t d * t d)
/-- −2·⟨p, t⟩, as the contraction of −2·p against t. -/
def crossK (p t : Fin 3 → EReal) : EReal := ∑ d, (p d * wNeg2) * t d
/-- The reference's clamped squared distance, each squared norm a sum from the zero word. -/
def distR (p t : Fin 3 → EReal) : EReal :=
  max (((w0 + ∑ d, p d * p d) + (w0 + ∑ d, t d * t d)) - w2 * ∑ d, p d * t d) w0

/-- A point all of whose coordinates are real numbers. -/
def Fin3Real (p : Fin 3 → EReal) : Prop := ∀ d, ∃ r : ℝ, p d = (r : EReal)

theorem sqK_real {p : Fin 3 → EReal} (hp : Fin3Real p) : ∃ r : ℝ, sqK p = (r : EReal) := by
  choose p' hp' using hp
  refine ⟨p' 0 * p' 0 + p' 1 * p' 1 + p' 2 * p' 2, ?_⟩
  unfold sqK
  simp only [Fin.sum_univ_three, hp', ← EReal.coe_mul, ← EReal.coe_add]

theorem sqOnes_real {t : Fin 3 → EReal} (ht : Fin3Real t) : ∃ r : ℝ, sqOnes t = (r : EReal) := by
  choose t' ht' using ht
  refine ⟨1 * (t' 0 * t' 0) + 1 * (t' 1 * t' 1) + 1 * (t' 2 * t' 2), ?_⟩
  unfold sqOnes
  simp only [Fin.sum_univ_three, ht', w1_eq, ← EReal.coe_mul, ← EReal.coe_add]

/-- The kernel's entry with the targets' norm added first and the point's norm last, clamped: the reference's distance. -/
theorem dist_row {p t : Fin 3 → EReal} (hp : Fin3Real p) (ht : Fin3Real t) :
    max ((crossK p t + sqOnes t) + sqK p) w0 = distR p t := by
  choose p' hp' using hp
  choose t' ht' using ht
  unfold crossK sqOnes sqK distR
  simp only [Fin.sum_univ_three, hp', ht', w0_eq, w1_eq, wNeg2_eq, w2_eq, ← EReal.coe_mul, ← EReal.coe_add, ← EReal.coe_sub]
  congr 2
  ring

/-- The kernel's entry with the point's norm added first and the target's norm last, clamped: the same. -/
theorem dist_col {p t : Fin 3 → EReal} (hp : Fin3Real p) (ht : Fin3Real t) :
    max ((crossK p t + sqK p) + sqOnes t) w0 = distR p t := by
  choose p' hp' using hp
  choose t' ht' using ht
  unfold crossK sqOnes sqK distR
  simp only [Fin.sum_univ_three, hp', ht', w0_eq, w1_eq, wNeg2_eq, w2_eq, ← EReal.coe_mul, ← EReal.coe_add, ← EReal.coe_sub]
  congr 2
  ring

/-- Adding a real constant and clamping at zero is monotone and fixes +∞. -/
theorem clampAdd_mono (c : EReal) : Monotone fun x : EReal => max (x + c) w0 :=
  fun _ _ hxy => max_le_max (add_le_add hxy le_rfl) le_rfl

theorem clampAdd_top {c : EReal} (hc : ∃ r : ℝ, c = (r : EReal)) : max ((⊤ : EReal) + c) w0 = ⊤ := by
  obtain ⟨r, rfl⟩ := hc
  rw [EReal.top_add_coe]
  exact max_eq_left le_top

/-- The clamp and a finite constant summand move inside a fold of min from +∞. -/
theorem clampAdd_fold {ι : Type} (s : Finset ι) (f : ι → EReal) {c : EReal} (hc : ∃ r : ℝ, c = (r : EReal)) :
    max (s.fold min ⊤ f + c) w0 = s.fold min ⊤ (fun j => max (f j + c) w0) :=
  map_fold_min_top s f (fun x => max (x + c) w0) (clampAdd_mono c) (clampAdd_top hc)

/-! ## The two results over whole point clouds -/

/-- Point n of batch b of an [B, N, 3] array. -/
def pt {B N : ℕ} (X : (⟨3, ![B, N, 3]⟩ : Shape).Idx → EReal) (b : Fin B) (n : Fin N) : Fin 3 → EReal := fun d => X (ix3 b n d)

/-- Every entry of the array is a real number. -/
def AllReal {s : Shape} (X : s.Idx → EReal) : Prop := ∀ i, ∃ r : ℝ, X i = (r : EReal)

theorem pt_real {B N : ℕ} {X : (⟨3, ![B, N, 3]⟩ : Shape).Idx → EReal} (hX : AllReal X) (b : Fin B) (n : Fin N) : Fin3Real (pt X b n) :=
  fun d => hX (ix3 b n d)

/-- What the kernel minimises over the targets for a fixed point, and over the points for a fixed target. -/
def rowEntry {B N M : ℕ} (X0 : (⟨3, ![B, N, 3]⟩ : Shape).Idx → EReal) (X1 : (⟨3, ![B, M, 3]⟩ : Shape).Idx → EReal) (b : Fin B) (n : Fin N) (mm : Fin M) : EReal :=
  crossK (pt X0 b n) (pt X1 b mm) + sqOnes (pt X1 b mm)
def colEntry {B N M : ℕ} (X0 : (⟨3, ![B, N, 3]⟩ : Shape).Idx → EReal) (X1 : (⟨3, ![B, M, 3]⟩ : Shape).Idx → EReal) (b : Fin B) (n : Fin N) (mm : Fin M) : EReal :=
  crossK (pt X0 b n) (pt X1 b mm) + sqK (pt X0 b n)

/-- The kernel's nearest-target value of point n: minimise, add the point's norm, clamp. -/
def minxK {B N M : ℕ} (X0 : (⟨3, ![B, N, 3]⟩ : Shape).Idx → EReal) (X1 : (⟨3, ![B, M, 3]⟩ : Shape).Idx → EReal) (b : Fin B) (n : Fin N) : EReal :=
  max ((Finset.univ : Finset (Fin M)).fold min ⊤ (fun mm => rowEntry X0 X1 b n mm) + sqK (pt X0 b n)) w0
/-- The kernel's nearest-point value of target mm: minimise, add the target's norm, clamp. -/
def minyK {B N M : ℕ} (X0 : (⟨3, ![B, N, 3]⟩ : Shape).Idx → EReal) (X1 : (⟨3, ![B, M, 3]⟩ : Shape).Idx → EReal) (b : Fin B) (mm : Fin M) : EReal :=
  max ((Finset.univ : Finset (Fin N)).fold min ⊤ (fun n => colEntry X0 X1 b n mm) + sqOnes (pt X1 b mm)) w0

/-- On finite clouds the kernel's nearest-target value is the minimum over the targets of the reference's distance. -/
theorem minx_eq {B N M : ℕ} {X0 : (⟨3, ![B, N, 3]⟩ : Shape).Idx → EReal} {X1 : (⟨3, ![B, M, 3]⟩ : Shape).Idx → EReal}
    (h0 : AllReal X0) (h1 : AllReal X1) (b : Fin B) (n : Fin N) :
    minxK X0 X1 b n = (Finset.univ : Finset (Fin M)).fold min ⊤ (fun mm => distR (pt X0 b n) (pt X1 b mm)) := by
  unfold minxK
  rw [clampAdd_fold _ _ (sqK_real (pt_real h0 b n))]
  exact congrArg (fun f => Finset.fold min ⊤ f (Finset.univ : Finset (Fin M)))
    (funext fun mm => dist_row (pt_real h0 b n) (pt_real h1 b mm))

/-- On finite clouds the kernel's nearest-point value is the minimum over the points of the reference's distance. -/
theorem miny_eq {B N M : ℕ} {X0 : (⟨3, ![B, N, 3]⟩ : Shape).Idx → EReal} {X1 : (⟨3, ![B, M, 3]⟩ : Shape).Idx → EReal}
    (h0 : AllReal X0) (h1 : AllReal X1) (b : Fin B) (mm : Fin M) :
    minyK X0 X1 b mm = (Finset.univ : Finset (Fin N)).fold min ⊤ (fun n => distR (pt X0 b n) (pt X1 b mm)) := by
  unfold minyK
  rw [clampAdd_fold _ _ (sqOnes_real (pt_real h1 b mm))]
  exact congrArg (fun f => Finset.fold min ⊤ f (Finset.univ : Finset (Fin N)))
    (funext fun n => dist_col (pt_real h0 b n) (pt_real h1 b mm))

/-! ## A minimum accumulated over consecutive blocks of 256 -/

/-- One more block of 256 entries folded into a running value keeps the universal property: a lower bound of the new
    value is a lower bound of every entry below 256·(k+1). -/
theorem run_step {N : ℕ} (f : Fin N → EReal) (k : ℕ) (hk : 256 * (k + 1) ≤ N) (a : EReal) (g : Fin 256 → EReal)
    (hg : ∀ r : Fin 256, g r = f ⟨256 * k + r.val, by have := r.isLt; omega⟩)
    (ha : ∀ z, z ≤ a ↔ ∀ n : Fin N, n.val < 256 * k → z ≤ f n) (z : EReal) :
    z ≤ min a ((Finset.univ : Finset (Fin 256)).fold min ⊤ g) ↔ ∀ n : Fin N, n.val < 256 * (k + 1) → z ≤ f n := by
  rw [le_min_iff, ha, le_fold_min_top]
  constructor
  · rintro ⟨h1, h2⟩ n hn
    by_cases hlt : n.val < 256 * k
    · exact h1 n hlt
    · have hr : n.val - 256 * k < 256 := by omega
      have := h2 ⟨n.val - 256 * k, hr⟩ (Finset.mem_univ _)
      rw [hg] at this
      have e : (⟨256 * k + (n.val - 256 * k), by omega⟩ : Fin N) = n := Fin.ext (by show 256 * k + (n.val - 256 * k) = n.val; omega)
      rwa [e] at this
  · intro h
    refine ⟨fun n hn => h n (by omega), fun r _ => ?_⟩
    rw [hg]
    exact h _ (by show 256 * k + r.val < 256 * (k + 1); have := r.isLt; omega)

/-- The running value after every block is the minimum over all entries. -/
theorem run_total {N : ℕ} (f : Fin N → EReal) (a : EReal) (k : ℕ) (hk : N ≤ 256 * k)
    (ha : ∀ z, z ≤ a ↔ ∀ n : Fin N, n.val < 256 * k → z ≤ f n) :
    a = (Finset.univ : Finset (Fin N)).fold min ⊤ f := by
  refine eq_of_forall_le_iff fun z => ?_
  rw [ha, le_fold_min_top]
  exact ⟨fun h n _ => h n (lt_of_lt_of_le n.isLt hk), fun h n _ => h n (Finset.mem_univ _)⟩

end Cert.Chamfer

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.PayIdx.lean ====
import proofs.«170560_j3298534884131_2_alg».proof.Proof.Gen.KernelIdeal.Skeleton
import proofs.«170560_j3298534884131_2_alg».proof.Proof.Spec
import proofs.«170560_j3298534884131_2_alg».proof.Proof.LibMinReduce
import proofs.«170560_j3298534884131_2_alg».proof.Proof.LibLane
import proofs.«170560_j3298534884131_2_alg».proof.Proof.LibIndexRead
import proofs.«170560_j3298534884131_2_alg».proof.Proof.LibTransposedDot
import Idealize.ShloMosaic.Lib.ValueLayout

/-! The body's payloads read at an index, at the extended reals.

A block of points is an array [1, R, 3]; its point r is `pt v 0 r`. The casts between [1, R, 3] and [R, 3], [R] and
[R, 1], [M] and [1, M], [1, 1, M] and [1, M] only rename indices; the two contractions against the targets' last axis
are sums over the three coordinates; the two minimum-reductions are folds of min from +∞ over the targets of a row and
over the points of a column. -/

noncomputable section

namespace Cert.KernelIdeal.PayIdx

open Idealize.ShloMosaic Idealize.ShloMosaic.ValueIdx Idealize.ShloMosaic.MinReduce Idealize.ShloMosaic.RowRead
open Idealize.ShloMosaic.TransposedDot
open Cert.KernelIdeal Cert.KernelIdeal.Gen Cert.Chamfer

/-- A column of row values: the lane sums of a [256, 3] array kept as [256, 1]. -/
theorem sumColumn_apply (A : FVec Ideal S256x3 .f32) (r : Fin 256) (w : Fin 1) :
    shapeCast S256x1 (multiReduction .add [1] S256 A 0x00000000#32 reduces_S256x3_S256 (.inl rfl) rfl) shapeCasts_S256_S256x1 (ix2 r w)
      = ∑ d : Fin 3, A (ix2 r d) :=
  (shapeCast_a_a1_apply _ shapeCasts_S256_S256x1 r w).trans (Cert.LibLane.laneSum_apply A reduces_S256x3_S256 (.inl rfl) rfl r)

/-- The rows' minima of a [256, 8192] array kept as a column [256, 1]. -/
theorem rowMinColumn_apply (A : FVec Ideal S256x8192 .f32) (r : Fin 256) (w : Fin 1) :
    shapeCast S256x1 (multiReduction .minimumf [1] S256 A 0x7F800000#32 reduces_S256x8192_S256 (.inl rfl) rfl) shapeCasts_S256_S256x1 (ix2 r w)
      = (Finset.univ : Finset (Fin 8192)).fold min ⊤ (fun j => A (ix2 r j)) :=
  (shapeCast_a_a1_apply _ shapeCasts_S256_S256x1 r w).trans (laneMin_apply A reduces_S256x8192_S256 (.inl rfl) rfl r)

/-- Two columns added, clamped at zero, stored as a block [1, 256, 1]. -/
theorem clampBlock_apply (c16 c5 : FVec Ideal S256x1 .f32) (u : Fin 1) (r : Fin 256) (w : Fin 1) :
    shapeCast S1x256x1 (maximumf (addf c16 c5) (broadcast S256x1 (Scalar.ofBits .f32 0x00000000#32))) shapeCasts_S256x1_S1x256x1 (ix3 u r w)
      = max (c16 (ix2 r w) + c5 (ix2 r w)) w0 :=
  shapeCast_ab_1ab_apply (maximumf (addf c16 c5) (broadcast S256x1 (Scalar.ofBits .f32 0x00000000#32))) shapeCasts_S256x1_S1x256x1 u r w

/-- What was there against the columns' minima, as a row [1, 8192]. -/
theorem colMinRow_apply (A : FVec Ideal S256x8192 .f32) (v30 : Vec Ideal S1x1x8192 .f32) (u : Fin 1) (j : Fin 8192) :
    minimumf (shapeCast S1x8192 v30 shapeCasts_S1x1x8192_S1x8192)
        (shapeCast S1x8192 (multiReduction .minimumf [0] S8192 A 0x7F800000#32 reduces_S256x8192_S8192 (.inl rfl) rfl) shapeCasts_S8192_S1x8192) (ix2 u j)
      = min (v30 (ix3 (0 : Fin 1) u j)) ((Finset.univ : Finset (Fin 256)).fold min ⊤ (fun r => A (ix2 r j))) :=
  congrArg₂ min (shapeCast_1ab_ab_apply v30 shapeCasts_S1x1x8192_S1x8192 u j)
    ((shapeCast_a_1a_apply _ shapeCasts_S8192_S1x8192 u j).trans (colMin_apply A reduces_S256x8192_S8192 (.inl rfl) rfl j))

/-- A row plus the running row, clamped at zero, stored as a block [1, 1, 8192]. -/
theorem closeBlock_apply (v9 : FVec Ideal S1x8192 .f32) (v39 : Vec Ideal S1x1x8192 .f32) (u v : Fin 1) (j : Fin 8192) :
    shapeCast S1x1x8192 (maximumf (addf (shapeCast S1x8192 v39 shapeCasts_S1x1x8192_S1x8192) v9) (broadcast S1x8192 (Scalar.ofBits .f32 0x00000000#32)))
        shapeCasts_S1x8192_S1x1x8192 (ix3 u v j)
      = max (v39 (ix3 (0 : Fin 1) v j) + v9 (ix2 v j)) w0 :=
  (shapeCast_ab_1ab_apply _ shapeCasts_S1x8192_S1x1x8192 u v j).trans
    (congrArg (fun x => max (x + v9 (ix2 v j)) w0) (shapeCast_1ab_ab_apply v39 shapeCasts_S1x1x8192_S1x8192 v j))

variable (v0 : Vec Ideal S1x256x3 .f32) (v2 : Vec Ideal S1x8192x3 .f32)

/-- The block of points without its leading unit axis. -/
theorem pay3_apply (r : Fin 256) (d : Fin 3) : k0_pay3 v0 (ix2 r d) = v0 (ix3 (0 : Fin 1) r d) :=
  shapeCast_1ab_ab_apply v0 shapeCasts_S1x256x3_S256x3 r d

/-- The block of targets without its leading unit axis. -/
theorem pay4_apply (j : Fin 8192) (d : Fin 3) : k0_pay4 v2 (ix2 j d) = v2 (ix3 (0 : Fin 1) j d) :=
  shapeCast_1ab_ab_apply v2 shapeCasts_S1x8192x3_S8192x3 j d

/-- The column of squared norms of the points. -/
theorem pay5_apply (r : Fin 256) (w : Fin 1) : k0_pay5 v0 (ix2 r w) = sqK (pt v0 (0 : Fin 1) r) := by
  refine (sumColumn_apply (mulf (k0_pay3 v0) (k0_pay3 v0)) r w).trans ?_
  refine Finset.sum_congr rfl fun d _ => ?_
  show k0_pay3 v0 (ix2 r d) * k0_pay3 v0 (ix2 r d) = v0 (ix3 (0 : Fin 1) r d) * v0 (ix3 (0 : Fin 1) r d)
  rw [pay3_apply]

/-- The row of squared norms of the targets: a row of ones contracted against the squares. -/
theorem pay6_apply (u : Fin 1) (j : Fin 8192) : k0_pay6 v2 (ix2 u j) = sqOnes (pt v2 (0 : Fin 1) j) := by
  refine (matmul_transposedRhs dot_S1x3_S8192x3_S1x8192_1_1_0_0_n_n rfl (some .fp32) _ _ u j).trans ?_
  refine Finset.sum_congr rfl fun d _ => ?_
  show w1 * (k0_pay4 v2 (ix2 j d) * k0_pay4 v2 (ix2 j d)) = w1 * (v2 (ix3 (0 : Fin 1) j d) * v2 (ix3 (0 : Fin 1) j d))
  rw [pay4_apply]

/-- The cross terms: the points scaled by −2 contracted against the targets. -/
theorem pay7_apply (r : Fin 256) (j : Fin 8192) : k0_pay7 v0 v2 (ix2 r j) = crossK (pt v0 (0 : Fin 1) r) (pt v2 (0 : Fin 1) j) := by
  refine (matmul_transposedRhs dot_S256x3_S8192x3_S256x8192_1_1_0_0_n_n rfl (some .fp32) _ _ r j).trans ?_
  refine Finset.sum_congr rfl fun d _ => ?_
  show (k0_pay3 v0 (ix2 r d) * wNeg2) * k0_pay4 v2 (ix2 j d) = (v0 (ix3 (0 : Fin 1) r d) * wNeg2) * v2 (ix3 (0 : Fin 1) j d)
  rw [pay3_apply, pay4_apply]

/-- The block of nearest-target values: minimise over the targets, add the point's squared norm, clamp at zero. -/
theorem pay8_apply (u : Fin 1) (r : Fin 256) (w : Fin 1) :
    k0_pay8 v0 v2 (ix3 u r w)
      = max ((Finset.univ : Finset (Fin 8192)).fold min ⊤
          (fun j => crossK (pt v0 (0 : Fin 1) r) (pt v2 (0 : Fin 1) j) + sqOnes (pt v2 (0 : Fin 1) j))
          + sqK (pt v0 (0 : Fin 1) r)) w0 := by
  refine (clampBlock_apply (shapeCast S256x1 (multiReduction .minimumf [1] S256 (addf (k0_pay7 v0 v2) (broadcastTo S256x8192 (k0_pay6 v2) broadcasts_S1x8192_S256x8192)) 0x7F800000#32 reduces_S256x8192_S256 (.inl rfl) rfl) shapeCasts_S256_S256x1) (k0_pay5 v0) u r w).trans ?_
  refine congrArg₂ (fun x y => max (x + y) w0) ?_ (pay5_apply v0 r w)
  refine (rowMinColumn_apply (addf (k0_pay7 v0 v2) (broadcastTo S256x8192 (k0_pay6 v2) broadcasts_S1x8192_S256x8192)) r w).trans ?_
  refine congrArg (fun f => Finset.fold min ⊤ f (Finset.univ : Finset (Fin 8192))) (funext fun j => ?_)
  show k0_pay7 v0 v2 (ix2 r j) + broadcastTo S256x8192 (k0_pay6 v2) broadcasts_S1x8192_S256x8192 (ix2 r j) = _
  rw [pay7_apply, broadcastTo_1b_ab_apply, pay6_apply]

/-- The block of +∞ a batch's first tile starts the running minimum from. -/
theorem pay9_apply (u v : Fin 1) (j : Fin 8192) : k0_pay9 (F := Ideal) (ix3 u v j) = ⊤ :=
  (shapeCast_ab_1ab_apply (broadcast S1x8192 (Scalar.ofBits (F := Ideal) .f32 0x7F800000#32)) shapeCasts_S1x8192_S1x1x8192 u v j).trans posInf_f32

/-- The running row stored back with its leading unit axis. -/
theorem pay1_apply (v32 : FVec Ideal S1x8192 .f32) (u v : Fin 1) (j : Fin 8192) : k0_pay1 v32 (ix3 u v j) = v32 (ix2 v j) :=
  shapeCast_ab_1ab_apply v32 shapeCasts_S1x8192_S1x1x8192 u v j

/-- The running minimum after a tile: what was there, against the tile's minimum over its points. -/
theorem pay10_apply (v30 : Vec Ideal S1x1x8192 .f32) (u : Fin 1) (j : Fin 8192) :
    k0_pay10 v0 v2 v30 (ix2 u j)
      = min (v30 (ix3 (0 : Fin 1) u j)) ((Finset.univ : Finset (Fin 256)).fold min ⊤
          (fun r => crossK (pt v0 (0 : Fin 1) r) (pt v2 (0 : Fin 1) j) + sqK (pt v0 (0 : Fin 1) r))) := by
  refine (colMinRow_apply (addf (k0_pay7 v0 v2) (broadcastTo S256x8192 (k0_pay5 v0) broadcasts_S256x1_S256x8192)) v30 u j).trans ?_
  refine congrArg (fun x => min (v30 (ix3 (0 : Fin 1) u j)) x) ?_
  refine congrArg (fun f => Finset.fold min ⊤ f (Finset.univ : Finset (Fin 256))) (funext fun r => ?_)
  show k0_pay7 v0 v2 (ix2 r j) + broadcastTo S256x8192 (k0_pay5 v0) broadcasts_S256x1_S256x8192 (ix2 r j) = _
  rw [pay7_apply, broadcastTo_a1_ab_apply, pay5_apply]

/-- The last tile's closing step: add the targets' squared norms to the running minimum and clamp at zero. -/
theorem pay2_apply (v9 : FVec Ideal S1x8192 .f32) (v39 : Vec Ideal S1x1x8192 .f32) (u v : Fin 1) (j : Fin 8192) :
    k0_pay2 v9 v39 (ix3 u v j) = max (v39 (ix3 (0 : Fin 1) v j) + v9 (ix2 v j)) w0 := by
  exact closeBlock_apply v9 v39 u v j

end Cert.KernelIdeal.PayIdx

end
-- ==== Proof.KernelValue.lean ====
import proofs.«170560_j3298534884131_2_alg».proof.Proof.Gen.KernelIdeal.Frame
import proofs.«170560_j3298534884131_2_alg».proof.Proof.Pieces
import proofs.«170560_j3298534884131_2_alg».proof.Proof.PayIdx
import proofs.«170560_j3298534884131_2_alg».proof.Proof.Spec
import Idealize.ShloMosaic.Lib.Pipeline.Value

set_option maxRecDepth 16384

/-! The two arrays the kernel's region leaves, as functions of the two point clouds.

Grid point t is tile t mod 32 of batch t div 32. Its block of points is rows 256·(t mod 32) … of the batch's points, its
block of targets all 8192 targets of the batch. The block of nearest-target values it writes back is those rows of
`minxK`. The block of nearest-point values is carried across the 32 tiles of a batch as a running minimum, characterised
by its lower bounds (every entry among the points seen so far), closed at the last tile into `minyK` and written back
there. -/

noncomputable section

namespace Cert.KernelIdeal.KValue

open Idealize.ShloMosaic Idealize.ShloMosaic.TcCoe Idealize.SL.Sem
open Idealize.ShloMosaic.Pipeline (Dat)
open Idealize.ShloMosaic.ValueIdx Idealize.ShloMosaic.MinReduce
open Cert.KernelIdeal Cert.KernelIdeal.Gen Cert.KernelIdeal.PayIdx Cert.Chamfer

variable (m : (ℓ : Loc nD τ sig) → Buf (Elt Ideal) ℓ) (ρ : Dev nD → PrngReg)

/-- The two point clouds as the region finds them. -/
abbrev X0 (c : Dev nD) : S4x8192x3.Idx → EReal := V m c main_arg0
abbrev X1 (c : Dev nD) : S4x8192x3.Idx → EReal := V m c main_arg1

theorem hN128 : cfg0.N = 128 := N_0

/-- The printed index maps over the grid: batch t div 32 on the leading axis; tile t mod 32 on the points' axis. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = t.val % 32 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- The block of points at grid point t: rows 256·k … of batch b. -/
theorem iblk0_apply (c : Dev nD) (t : Fin cfg0.N) (b : Fin 4) (k : ℕ) (hb : b.val = t.val / 32) (hk : k = t.val % 32)
    (u : Fin 1) (r : Fin 256) (d : Fin 3) :
    (iblk m c 0 t : Vec Ideal S1x256x3 .f32) (ix3 u r d) = X0 m c (ix3 b ⟨256 * k + r.val, by have := r.isLt; omega⟩ d) := by
  obtain ⟨e0, e1, e2, -⟩ := idx_facts t
  show V m c main_arg0 (((cfg0.win 0).blk t).view.emb (ix3 u r d)) = V m c main_arg0 _
  refine congrArg (V m c main_arg0) (funext fun a => Fin.ext ?_)
  match a with
  | ⟨0, _⟩ => show win0_0.index t (0 : Fin 3) * 1 + 1 * u.val = b.val; have := u.isLt; omega
  | ⟨1, _⟩ => show win0_0.index t (1 : Fin 3) * 256 + 1 * r.val = 256 * k + r.val; omega
  | ⟨2, _⟩ => show win0_0.index t (2 : Fin 3) * 3 + 1 * d.val = d.val; omega

/-- The block of targets at grid point t: all targets of batch b. -/
theorem iblk1_apply (c : Dev nD) (t : Fin cfg0.N) (b : Fin 4) (hb : b.val = t.val / 32)
    (u : Fin 1) (j : Fin 8192) (d : Fin 3) :
    (iblk m c 1 t : Vec Ideal S1x8192x3 .f32) (ix3 u j d) = X1 m c (ix3 b j d) := by
  obtain ⟨-, -, -, e0, e1, e2, -⟩ := idx_facts t
  show V m c main_arg1 (((cfg0.win 1).blk t).view.emb (ix3 u j d)) = V m c main_arg1 _
  refine congrArg (V m c main_arg1) (funext fun a => Fin.ext ?_)
  match a with
  | ⟨0, _⟩ => show win0_1.index t (0 : Fin 3) * 1 + 1 * u.val = b.val; have := u.isLt; omega
  | ⟨1, _⟩ => show win0_1.index t (1 : Fin 3) * 8192 + 1 * j.val = j.val; omega
  | ⟨2, _⟩ => show win0_1.index t (2 : Fin 3) * 3 + 1 * d.val = d.val; omega

/-! ## What each point leaves -/

/-- The block of nearest-target values after any point: the one payload of the point's blocks. -/
theorem outs_fst (c : Dev nD) (t : Fin cfg0.N) :
    (outsAt0 m c t.val t.isLt).1 = k0_pay8 (iblk m c 0 t) (iblk m c 1 t) := by
  have hN : t.val < 128 := lt_of_lt_of_eq t.isLt hN128
  by_cases h0 : t.val % 32 = 0
  · have h1 : ¬t.val % 32 = 31 := by omega
    rw [outsAt0_A m c t h0 h1]
    dsimp only
    exact Pieces.out_A_2 (F := Ideal) c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t)
  · by_cases h1 : t.val % 32 = 31
    · rw [outsAt0_C m c t h0 h1]
      dsimp only
      exact Pieces.out_C_2 (F := Ideal) c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2
    · rw [outsAt0_B m c t h0 h1]
      dsimp only
      exact Pieces.out_B_2 (F := Ideal) c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The running block after a batch's first tile. -/
theorem outs_snd_A (c : Dev nD) (t : Fin cfg0.N) (h0 : t.val % 32 = 0) (h1 : ¬t.val % 32 = 31) :
    (outsAt0 m c t.val t.isLt).2 = k0_pay1 (k0_pay10 (iblk m c 0 t) (iblk m c 1 t) (k0_pay9 (F := Ideal))) := by
  rw [outsAt0_A m c t h0 h1]
  dsimp only
  exact Pieces.out_A_3 (F := Ideal) c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t)

/-- The running block after a middle tile, over what the tile before left. -/
theorem outs_snd_B (c : Dev nD) (t : Fin cfg0.N) (h0 : ¬t.val % 32 = 0) (h1 : ¬t.val % 32 = 31) :
    (outsAt0 m c t.val t.isLt).2 = k0_pay1 (k0_pay10 (iblk m c 0 t) (iblk m c 1 t) (outsAt0 m c (t.val - 1) (Nat.lt_of_le_of_lt (Nat.sub_le _ _) t.isLt)).2) := by
  rw [outsAt0_B m c t h0 h1]
  dsimp only
  exact Pieces.out_B_3 (F := Ideal) c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The block after a batch's last tile, over what the tile before left. -/
theorem outs_snd_C (c : Dev nD) (t : Fin cfg0.N) (h0 : ¬t.val % 32 = 0) (h1 : t.val % 32 = 31) :
    (outsAt0 m c t.val t.isLt).2
      = k0_pay2 (k0_pay6 (iblk m c 1 t)) (k0_pay1 (k0_pay10 (iblk m c 0 t) (iblk m c 1 t) (outsAt0 m c (t.val - 1) (Nat.lt_of_le_of_lt (Nat.sub_le _ _) t.isLt)).2)) := by
  rw [outsAt0_C m c t h0 h1]
  dsimp only
  exact Pieces.out_C_3 (F := Ideal) c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2

/-! ## The running minimum, by its lower bounds -/

/-- A block [1, 1, 8192] whose entry j has, as its lower bounds, exactly the lower bounds of the entries of column j
    among the first 256·k points of batch b. -/
def RunInv (Y0 Y1 : S4x8192x3.Idx → EReal) (b : Fin 4) (k : ℕ) (v : Vec Ideal S1x1x8192 .f32) : Prop :=
  ∀ (u w : Fin 1) (j : Fin 8192) (z : EReal),
    z ≤ v (ix3 u w j) ↔ ∀ n : Fin 8192, n.val < 256 * k → z ≤ colEntry Y0 Y1 b n j

/-- The block of +∞ bounds nothing. -/
theorem runInv_zero (Y0 Y1 : S4x8192x3.Idx → EReal) (b : Fin 4) : RunInv Y0 Y1 b 0 (k0_pay9 (F := Ideal)) := by
  intro u w j z
  rw [pay9_apply]
  exact ⟨fun _ n hn => absurd hn (by omega), fun _ => le_top⟩

/-- One tile folded in: the tile's points are points 256·k … of the batch. -/
theorem fold_tile (Y0 Y1 : S4x8192x3.Idx → EReal) (b : Fin 4) (k : ℕ) (hk : k < 32)
    (x0 : Vec Ideal S1x256x3 .f32) (x1 : Vec Ideal S1x8192x3 .f32)
    (h0 : ∀ (r : Fin 256) (d : Fin 3), x0 (ix3 (0 : Fin 1) r d) = Y0 (ix3 b ⟨256 * k + r.val, by have := r.isLt; omega⟩ d))
    (h1 : ∀ (j : Fin 8192) (d : Fin 3), x1 (ix3 (0 : Fin 1) j d) = Y1 (ix3 b j d))
    (xo : Vec Ideal S1x1x8192 .f32) (hxo : RunInv Y0 Y1 b k xo) :
    RunInv Y0 Y1 b (k + 1) (k0_pay1 (k0_pay10 x0 x1 xo)) := by
  intro u w j z
  rw [pay1_apply, pay10_apply]
  have e0 : ∀ r : Fin 256, pt x0 (0 : Fin 1) r = pt Y0 b ⟨256 * k + r.val, by have := r.isLt; omega⟩ :=
    fun r => funext fun d => h0 r d
  have e1 : pt x1 (0 : Fin 1) j = pt Y1 b j := funext fun d => h1 j d
  simp only [e0, e1]
  exact run_step (fun n => colEntry Y0 Y1 b n j) k (by omega) (xo (ix3 (0 : Fin 1) w j)) _ (fun r => rfl) (hxo 0 w j) z

/-- The last tile folded in and closed: the nearest-point value of every target of the batch. -/
theorem close_tile (Y0 Y1 : S4x8192x3.Idx → EReal) (b : Fin 4)
    (x0 : Vec Ideal S1x256x3 .f32) (x1 : Vec Ideal S1x8192x3 .f32)
    (h0 : ∀ (r : Fin 256) (d : Fin 3), x0 (ix3 (0 : Fin 1) r d) = Y0 (ix3 b ⟨256 * 31 + r.val, by have := r.isLt; omega⟩ d))
    (h1 : ∀ (j : Fin 8192) (d : Fin 3), x1 (ix3 (0 : Fin 1) j d) = Y1 (ix3 b j d))
    (xo : Vec Ideal S1x1x8192 .f32) (hxo : RunInv Y0 Y1 b 31 xo) (u w : Fin 1) (j : Fin 8192) :
    k0_pay2 (k0_pay6 x1) (k0_pay1 (k0_pay10 x0 x1 xo)) (ix3 u w j) = minyK Y0 Y1 b j := by
  have h32 := fold_tile Y0 Y1 b 31 (by omega) x0 x1 h0 h1 xo hxo
  have tot := run_total (fun n => colEntry Y0 Y1 b n j) (k0_pay1 (k0_pay10 x0 x1 xo) (ix3 (0 : Fin 1) w j)) 32 (by omega)
    (h32 0 w j)
  have e1 : pt x1 (0 : Fin 1) j = pt Y1 b j := funext fun d => h1 j d
  rw [pay2_apply, pay6_apply, e1, tot]
  rfl

/-- After tile k of batch b the carried block bounds the first k + 1 tiles, and after the last tile it is closed. -/
theorem outs_snd (c : Dev nD) (n : ℕ) : ∀ (hn : n < cfg0.N) (b : Fin 4), b.val = n / 32 →
    (n % 32 < 31 → RunInv (X0 m c) (X1 m c) b (n % 32 + 1) (outsAt0 m c n hn).2)
    ∧ (n % 32 = 31 → ∀ (u w : Fin 1) (j : Fin 8192), (outsAt0 m c n hn).2 (ix3 u w j) = minyK (X0 m c) (X1 m c) b j) := by
  induction n using Nat.strong_induction_on with
  | _ n ih =>
    intro hn b hb
    have hN : n < 128 := lt_of_lt_of_eq hn hN128
    by_cases h0 : n % 32 = 0
    · have h1 : ¬n % 32 = 31 := by omega
      refine ⟨fun _ => ?_, fun h => absurd h h1⟩
      rw [show (outsAt0 m c n hn).2 = _ from outs_snd_A m c ⟨n, hn⟩ h0 h1, h0]
      exact fold_tile (X0 m c) (X1 m c) b 0 (by omega) (iblk m c 0 ⟨n, hn⟩) (iblk m c 1 ⟨n, hn⟩)
        (fun r d => iblk0_apply m c ⟨n, hn⟩ b 0 hb h0.symm 0 r d) (fun j d => iblk1_apply m c ⟨n, hn⟩ b hb 0 j d)
        (k0_pay9 (F := Ideal)) (runInv_zero (X0 m c) (X1 m c) b)
    · have hprev := (ih (n - 1) (by omega) (by omega) b (by omega)).1 (by omega)
      rw [show (n - 1) % 32 + 1 = n % 32 from by omega] at hprev
      by_cases h1 : n % 32 = 31
      · refine ⟨fun h => absurd h1 (by omega), fun _ u w j => ?_⟩
        rw [show (outsAt0 m c n hn).2 = _ from outs_snd_C m c ⟨n, hn⟩ h0 h1]
        rw [h1] at hprev
        exact close_tile (X0 m c) (X1 m c) b (iblk m c 0 ⟨n, hn⟩) (iblk m c 1 ⟨n, hn⟩)
          (fun r d => iblk0_apply m c ⟨n, hn⟩ b 31 hb h1.symm 0 r d) (fun j d => iblk1_apply m c ⟨n, hn⟩ b hb 0 j d)
          _ hprev u w j
      · refine ⟨fun _ => ?_, fun h => absurd h h1⟩
        rw [show (outsAt0 m c n hn).2 = _ from outs_snd_B m c ⟨n, hn⟩ h0 h1]
        exact fold_tile (X0 m c) (X1 m c) b (n % 32) (by omega) (iblk m c 0 ⟨n, hn⟩) (iblk m c 1 ⟨n, hn⟩)
          (fun r d => iblk0_apply m c ⟨n, hn⟩ b (n % 32) hb rfl 0 r d) (fun j d => iblk1_apply m c ⟨n, hn⟩ b hb 0 j d)
          _ hprev

/-! ## The two arrays after the run -/

/-- The nearest-target values [4, 8192, 1] and the nearest-point values [4, 1, 8192] of the two clouds. -/
def G2 (c : Dev nD) : S4x8192x1.Idx → EReal := fun i => minxK (X0 m c) (X1 m c) (i 0) (i 1)
def G3 (c : Dev nD) : S4x1x8192.Idx → EReal := fun i => minyK (X0 m c) (X1 m c) (i 0) (i 2)

/-- One row of a point's block of nearest-target values. -/
theorem rowBlock_apply (Y0 Y1 : S4x8192x3.Idx → EReal) (b : Fin 4) (k : ℕ) (hk : k < 32)
    (x0 : Vec Ideal S1x256x3 .f32) (x1 : Vec Ideal S1x8192x3 .f32)
    (h0 : ∀ (r : Fin 256) (d : Fin 3), x0 (ix3 (0 : Fin 1) r d) = Y0 (ix3 b ⟨256 * k + r.val, by have := r.isLt; omega⟩ d))
    (h1 : ∀ (j : Fin 8192) (d : Fin 3), x1 (ix3 (0 : Fin 1) j d) = Y1 (ix3 b j d))
    (u : Fin 1) (r : Fin 256) (w : Fin 1) :
    k0_pay8 x0 x1 (ix3 u r w) = minxK Y0 Y1 b ⟨256 * k + r.val, by have := r.isLt; omega⟩ := by
  rw [pay8_apply]
  have e0 : pt x0 (0 : Fin 1) r = pt Y0 b ⟨256 * k + r.val, by have := r.isLt; omega⟩ := funext fun d => h0 r d
  have e1 : ∀ j : Fin 8192, pt x1 (0 : Fin 1) j = pt Y1 b j := fun j => funext fun d => h1 j d
  simp only [e0, e1]
  rfl

/-- What point t writes back of the nearest-target values is block t of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, outs_fst]
  have hN : t.val < 128 := lt_of_lt_of_eq t.isLt hN128
  obtain ⟨-, -, -, -, -, -, e0, e1, e2, -⟩ := idx_facts t
  funext y
  obtain ⟨u, r, w, rfl⟩ : ∃ (u : Fin 1) (r : Fin 256) (w : Fin 1), y = ix3 u r w := ⟨y 0, y 1, y 2, eq_ix3 y⟩
  refine (rowBlock_apply (X0 m c) (X1 m c) ⟨t.val / 32, by omega⟩ (t.val % 32) (by omega) (iblk m c 0 t) (iblk m c 1 t)
    (fun r d => iblk0_apply m c t ⟨t.val / 32, by omega⟩ (t.val % 32) rfl rfl 0 r d)
    (fun j d => iblk1_apply m c t ⟨t.val / 32, by omega⟩ rfl 0 j d) u r w).trans ?_
  show minxK (X0 m c) (X1 m c) _ _ = minxK (X0 m c) (X1 m c) ((((cfg0.win 2).blk t).view.emb (ix3 u r w)) 0) ((((cfg0.win 2).blk t).view.emb (ix3 u r w)) 1)
  congr 1
  · apply Fin.ext
    show t.val / 32 = win0_2.index t (0 : Fin 3) * 1 + 1 * u.val
    have := u.isLt; omega
  · apply Fin.ext
    show 256 * (t.val % 32) + r.val = win0_2.index t (1 : Fin 3) * 256 + 1 * r.val
    omega

/-- What a batch's last point writes back of the nearest-point values is its block of `G3`. -/
theorem flushed3_eq (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after0_3]
  have hN : t.val < 128 := lt_of_lt_of_eq t.isLt hN128
  obtain ⟨-, -, -, -, -, -, -, -, -, e0, e1, e2⟩ := idx_facts t
  funext y
  obtain ⟨u, w, j, rfl⟩ : ∃ (u w : Fin 1) (j : Fin 8192), y = ix3 u w j := ⟨y 0, y 1, y 2, eq_ix3 y⟩
  refine ((outs_snd m c t.val t.isLt ⟨t.val / 32, by omega⟩ rfl).2 h31 u w j).trans ?_
  show minyK (X0 m c) (X1 m c) _ _ = minyK (X0 m c) (X1 m c) ((((cfg0.win 3).blk t).view.emb (ix3 u w j)) 0) ((((cfg0.win 3).blk t).view.emb (ix3 u w j)) 2)
  congr 1
  · apply Fin.ext
    show t.val / 32 = win0_3.index t (0 : Fin 3) * 1 + 1 * u.val
    have := u.isLt; omega
  · apply Fin.ext
    show j.val = win0_3.index t (2 : Fin 3) * 8192 + 1 * j.val
    omega

/-- An index is in point t's block of the nearest-target array iff each coordinate is in the block's range. -/
theorem mem_blk2 (t : Fin cfg0.N) (i : S4x8192x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_0).slice (win0_2.rect t)).set ↔ _
  rw [View.set_slice_whole, Rect.mem_set_unit]
  exact Iff.rfl

theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- The nearest-target array after the run. -/
theorem final2 (c : Dev nD) : (dats m 0 c).arrAt 2 cfg0.N = G2 m c :=
  (dats m 0 c).arrAt_eq_of_cover 2 (G2 m c) (fun t _ => flushed2_eq m c t) fun i => by
    have hi0 : (i 0).val < 4 := (i 0).isLt
    have hi1 : (i 1).val < 8192 := (i 1).isLt
    have hi2 : (i 2).val < 1 := (i 2).isLt
    have ht : 32 * (i 0).val + (i 1).val / 256 < cfg0.N := by rw [hN128]; omega
    refine ⟨⟨32 * (i 0).val + (i 1).val / 256, ht⟩, flush0_2 _, ?_⟩
    obtain ⟨-, -, -, -, -, -, e0, e1, e2, -⟩ := idx_facts ⟨32 * (i 0).val + (i 1).val / 256, ht⟩
    rw [mem_blk2]
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 256 ≤ (i 1).val ∧ (i 1).val < win0_2.index _ (1 : Fin 3) * 256 + 256; rw [e1]; dsimp only; omega
    | ⟨2, _⟩ => show win0_2.index _ (2 : Fin 3) * 1 ≤ (i 2).val ∧ (i 2).val < win0_2.index _ (2 : Fin 3) * 1 + 1; rw [e2]; omega

/-- The nearest-point array after the run. -/
theorem final3 (c : Dev nD) : (dats m 0 c).arrAt 3 cfg0.N = G3 m c :=
  (dats m 0 c).arrAt_eq_of_cover 3 (G3 m c) (fun t hf => flushed3_eq m c t hf) fun i => by
    have hi0 : (i 0).val < 4 := (i 0).isLt
    have hi1 : (i 1).val < 1 := (i 1).isLt
    have hi2 : (i 2).val < 8192 := (i 2).isLt
    have ht : 32 * (i 0).val + 31 < cfg0.N := by rw [hN128]; omega
    refine ⟨⟨32 * (i 0).val + 31, ht⟩, (flush0_3 _).mpr (by show (32 * (i 0).val + 31) % 32 = 31; omega), ?_⟩
    obtain ⟨-, -, -, -, -, -, -, -, -, e0, e1, e2⟩ := idx_facts ⟨32 * (i 0).val + 31, ht⟩
    rw [mem_blk3]
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 8192 ≤ (i 2).val ∧ (i 2).val < win0_3.index _ (2 : Fin 3) * 8192 + 8192; rw [e2]; omega

end Cert.KernelIdeal.KValue

end
-- ==== Proof.KernelRun.lean ====
import proofs.«170560_j3298534884131_2_alg».proof.Proof.KernelValue
import Idealize.ShloMosaic.Lib.StableHlo.Run
import Idealize.ShloMosaic.Lib.Tactic

set_option maxRecDepth 16384

/-! The kernel's run read to its one result.

After the region the host sums each of the two arrays over all its entries, divides each sum by 32768, adds the two means,
clips the sum to [0, 10⁶], and adds a tenth of the mean absolute density. `lossOf` is that tail as one function of the
two total sums and the densities; the run's result is `lossOf` of the total sums of `G2` and `G3`. -/

noncomputable section

namespace Cert.KernelIdeal.KValue

open Idealize.ShloMosaic Idealize.ShloMosaic.TcCoe Idealize.SL.Sem
open Idealize.ShloMosaic.Pipeline (Dat)
open Idealize.ShloMosaic.ValueIdx Idealize.ShloMosaic.MinReduce
open Cert.KernelIdeal Cert.KernelIdeal.Gen Cert.Chamfer

variable (m : (ℓ : Loc nD τ sig) → Buf (Elt Ideal) ℓ) (ρ : Dev nD → PrngReg)

/-- The loss from the two total sums and the densities. -/
def lossOf (sx sy : FVec Ideal S_ .f32) (dens : FVec Ideal S4x8192 .f32) : FVec Ideal S_ .f32 :=
  addf
    (mulf (constant S_ .f32 0x3F800000#32)
      (minimumf (id (constant S_ .f32 0x49742400#32))
        (maximumf (id (constant S_ .f32 0x00000000#32))
          (addf (Host.divf sx (constant S_ .f32 0x47000000#32)) (Host.divf sy (constant S_ .f32 0x47000000#32))))))
    (mulf (constant S_ .f32 0x3DCCCCCD#32)
      (Host.divf (Host.reduceAdd (Host.absf dens) (constant S_ .f32 0x00000000#32) reducesTo_S4x8192_S_d0_1 h_S_)
        (constant S_ .f32 0x47000000#32)))

/-- The total sums of the two arrays the region leaves. -/
def sumX (c : Dev nD) : FVec Ideal S_ .f32 :=
  Host.reduceAdd (G2 m c) (constant S_ .f32 0x00000000#32) reducesTo_S4x8192x1_S_d0_1_2 h_S_
def sumY (c : Dev nD) : FVec Ideal S_ .f32 :=
  Host.reduceAdd (G3 m c) (constant S_ .f32 0x00000000#32) reducesTo_S4x1x8192_S_d0_1_2 h_S_

/-- A total sum from the zero word, at the extended reals. -/
theorem sumX_apply (c : Dev nD) (i : S_.Idx) : sumX m c i = w0 + ∑ j : S4x8192x1.Idx, G2 m c j := by
  unfold sumX
  generalize G2 m c = A
  simp only [Host.reduceAdd, Ideal.hostReduceAdd_def]
  exact Ideal.hostReduceAdd_total reducesTo_S4x8192x1_S_d0_1_2 (fun b => b.elim0) A _ i
theorem sumY_apply (c : Dev nD) (i : S_.Idx) : sumY m c i = w0 + ∑ j : S4x1x8192.Idx, G3 m c j := by
  unfold sumY
  generalize G3 m c = A
  simp only [Host.reduceAdd, Ideal.hostReduceAdd_def]
  exact Ideal.hostReduceAdd_total reducesTo_S4x1x8192_S_d0_1_2 (fun b => b.elim0) A _ i

set_option maxHeartbeats 2000000 in
/-- What the lines after the region leave in the result buffer. -/
theorem tail_eq (c : Dev nD) :
    Pipeline.afterTail₀ cfgs (dats m) 0 (V0 m) [hostOps1, hostOps1_1, hostOps1_2] c main_v12
      = lossOf (sumX m c) (sumY m c) (m ((c : Thread nD τ).loc main_arg2)) := by
  unfold Pipeline.afterTail₀
  have e2 : Pipeline.withArrays (cfgs 0).spec c (V0 m c) (fun w => (dats m 0 c).arrAt w (cfgs 0).N) (Proc.devRef .tc main_v0_0) = G2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = G3 m c :=
    (Pipeline.withArrays_arr spec0 launch0.win.arr_inj c _ _ 3).trans (final3 m c)
  have ea : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  generalize Pipeline.withArrays (cfgs 0).spec c (V0 m c) (fun w => (dats m 0 c).arrAt w (cfgs 0).N) = W at e2 e3 ea ⊢
  simp only [hostOps1, hostOps1_1, hostOps1_2, List.flatten_cons, List.flatten_nil, List.append_nil, List.cons_append, List.nil_append]
  after_results_simp
  rw [e2, e3, ea]
  rfl

/-- The run, read: the result at the loss of the two total sums, the arguments unchanged. -/
theorem run : θ_run defs (onTc (τ := τ) (main (F := Ideal))) ⟨m, fun _ => 0, ρ⟩ fun r => ∀ c : Dev nD,
      r.2.mem ((c.tc : Thread nD τ).loc main_v12) = lossOf (sumX m c) (sumY m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefSide.lean ====
import proofs.«170560_j3298534884131_2_alg».proof.Proof.Gen.ReferenceIdeal.Read
import proofs.«170560_j3298534884131_2_alg».proof.Proof.Spec
import proofs.«170560_j3298534884131_2_alg».proof.Proof.LibMinReduce

/-! The reference read at an index.

Entry (b, n, m) of the reference's clamped distance tensor is the clamped squared distance of point n and target m of
batch b, each squared norm a sum over the three coordinates from the zero word and the cross term a contraction over
them. Its minimum over the last axis at (b, n) is the fold of min from +∞ over the targets, and its minimum over the
middle axis at (b, m) the fold over the points. -/

noncomputable section

namespace Cert.ReferenceIdeal.RefValue

open Idealize.ShloMosaic Idealize.ShloMosaic.ValueIdx Idealize.ShloMosaic.MinReduce
open Cert.ReferenceIdeal Cert.ReferenceIdeal.Gen Cert.ReferenceIdeal.Read Cert.Chamfer

/-- One entry of the distance tensor. -/
theorem dist_apply (x0 x1 : (⟨S4x8192x3, .f32⟩ : BufTy).Contents (Elt Ideal)) (b : Fin 4) (n mm : Fin 8192) :
    val_main_v14 (F := Ideal) x0 x1 (ix3 b n mm) = distR (pt x0 b n) (pt x1 b mm) := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  have e1 : ∀ k, idx_main_v1 (idx_main_v5 (idx_main_v7 (ix3 b n mm))) k = ix3 b n k := fun k => funext fun a => Fin.ext (by
    match a with | ⟨0, _⟩ => rfl | ⟨1, _⟩ => rfl | ⟨2, _⟩ => rfl)
  have e2 : ∀ k, idx_main_v3 (idx_main_v6 (idx_main_v8 (ix3 b n mm))) k = ix3 b mm k := fun k => funext fun a => Fin.ext (by
    match a with | ⟨0, _⟩ => rfl | ⟨1, _⟩ => rfl | ⟨2, _⟩ => rfl)
  have e3 : ∀ k, lidx_main_v4 (ix3 b n mm) k = ix3 b n k := fun k => funext fun a => Fin.ext (by
    match a with | ⟨0, _⟩ => rfl | ⟨1, _⟩ => rfl | ⟨2, _⟩ => rfl)
  have e4 : ∀ k, ridx_main_v4 (ix3 b n mm) k = ix3 b mm k := fun k => funext fun a => Fin.ext (by
    match a with | ⟨0, _⟩ => rfl | ⟨1, _⟩ => rfl | ⟨2, _⟩ => rfl)
  simp only [e1, e2, e3, e4]
  rfl

/-- The minimum over the targets, at point (b, n). -/
theorem minOverTargets_apply (x0 x1 : (⟨S4x8192x3, .f32⟩ : BufTy).Contents (Elt Ideal)) (b : Fin 4) (n : Fin 8192) :
    val_main_v15 (F := Ideal) x0 x1 (ix2 b n)
      = (Finset.univ : Finset (Fin 8192)).fold min ⊤ (fun mm => distR (pt x0 b n) (pt x1 b mm)) := by
  unfold val_main_v15
  refine (hostMin_last3_apply (val_main_v14 (F := Ideal) x0 x1) (val_main_cst_3 (F := Ideal))
    reducesTo_S4x8192x8192_S4x8192_d2 (by decide) h_S_ posInf_f32 b n).trans ?_
  exact congrArg (fun f => Finset.fold min ⊤ f (Finset.univ : Finset (Fin 8192))) (funext fun mm => dist_apply x0 x1 b n mm)

/-- The minimum over the points, at target (b, m). -/
theorem minOverPoints_apply (x0 x1 : (⟨S4x8192x3, .f32⟩ : BufTy).Contents (Elt Ideal)) (b : Fin 4) (mm : Fin 8192) :
    val_main_v18 (F := Ideal) x0 x1 (ix2 b mm)
      = (Finset.univ : Finset (Fin 8192)).fold min ⊤ (fun n => distR (pt x0 b n) (pt x1 b mm)) := by
  unfold val_main_v18
  refine (hostMin_mid3_apply (val_main_v14 (F := Ideal) x0 x1) (val_main_cst_6 (F := Ideal))
    reducesTo_S4x8192x8192_S4x8192_d1 (by decide) h_S_ posInf_f32 b mm).trans ?_
  exact congrArg (fun f => Finset.fold min ⊤ f (Finset.univ : Finset (Fin 8192))) (funext fun n => dist_apply x0 x1 b n mm)

end Cert.ReferenceIdeal.RefValue

end
-- ==== Proof.LibUnitSum.lean ====
/-
  A total sum over an array with a unit axis, re-indexed over the array without it.

  The indices of an [a, b, 1] array and of an [a, 1, b] array correspond one to one to those of an [a, b] array (drop the
  unit coordinate), so for entries that agree along the correspondence the two total sums agree — in any commutative
  additive monoid. This is what joins a full reduction of a kept-dims result to the full reduction of the plain one.
-/
import Idealize.ShloMosaic.Lib.ValueIdx

namespace Idealize.ShloMosaic.UnitSum

open Idealize.ShloMosaic Idealize.ShloMosaic.ValueIdx
open scoped BigOperators

variable {M : Type} [AddCommMonoid M]

/-- Dropping the trailing unit coordinate. -/
def dropLast (a b : ℕ) : (⟨3, ![a, b, 1]⟩ : Shape).Idx ≃ (⟨2, ![a, b]⟩ : Shape).Idx where
  toFun i := ix2 (i 0) (i 1)
  invFun j := ix3 (j 0) (j 1) (0 : Fin 1)
  left_inv i := funext fun d => by
    match d with
    | ⟨0, _⟩ => rfl
    | ⟨1, _⟩ => rfl
    | ⟨2, _⟩ => exact Subsingleton.elim (α := Fin 1) _ _
  right_inv j := funext fun d => by
    match d with
    | ⟨0, _⟩ => rfl
    | ⟨1, _⟩ => rfl

/-- Dropping the middle unit coordinate. -/
def dropMid (a b : ℕ) : (⟨3, ![a, 1, b]⟩ : Shape).Idx ≃ (⟨2, ![a, b]⟩ : Shape).Idx where
  toFun i := ix2 (i 0) (i 2)
  invFun j := ix3 (j 0) (0 : Fin 1) (j 1)
  left_inv i := funext fun d => by
    match d with
    | ⟨0, _⟩ => rfl
    | ⟨1, _⟩ => exact Subsingleton.elim (α := Fin 1) _ _
    | ⟨2, _⟩ => rfl
  right_inv j := funext fun d => by
    match d with
    | ⟨0, _⟩ => rfl
    | ⟨1, _⟩ => rfl

/-- The total sum of an [a, b, 1] array is that of an [a, b] array with the same entries. -/
theorem sum_dropLast {a b : ℕ} (f : (⟨3, ![a, b, 1]⟩ : Shape).Idx → M) (g : (⟨2, ![a, b]⟩ : Shape).Idx → M)
    (h : ∀ (p : Fin a) (q : Fin b), f (ix3 p q (0 : Fin 1)) = g (ix2 p q)) : ∑ i, f i = ∑ j, g j := by
  refine Fintype.sum_equiv (dropLast a b) f g fun i => ?_
  have e : i = ix3 (i 0) (i 1) (0 : Fin 1) := ((dropLast a b).left_inv i).symm
  exact (congrArg f e).trans (h (i 0) (i 1))

/-- The total sum of an [a, 1, b] array is that of an [a, b] array with the same entries. -/
theorem sum_dropMid {a b : ℕ} (f : (⟨3, ![a, 1, b]⟩ : Shape).Idx → M) (g : (⟨2, ![a, b]⟩ : Shape).Idx → M)
    (h : ∀ (p : Fin a) (q : Fin b), f (ix3 p (0 : Fin 1) q) = g (ix2 p q)) : ∑ i, f i = ∑ j, g j := by
  refine Fintype.sum_equiv (dropMid a b) f g fun i => ?_
  have e : i = ix3 (i 0) (0 : Fin 1) (i 2) := ((dropMid a b).left_inv i).symm
  exact (congrArg f e).trans (h (i 0) (i 2))

end Idealize.ShloMosaic.UnitSum
-- ==== Proof.Bridge.lean ====
import proofs.«170560_j3298534884131_2_alg».proof.Proof.KernelRun
import proofs.«170560_j3298534884131_2_alg».proof.Proof.RefSide
import proofs.«170560_j3298534884131_2_alg».proof.Proof.LibUnitSum
import proofs.«170560_j3298534884131_2_alg».proof.Proof.Spec

set_option maxRecDepth 16384

/-! The two programs meet.

On finite point clouds entry (b, n) of the kernel's nearest-target array is the reference's minimum over the targets at
(b, n), and entry (b, m) of its nearest-point array the reference's minimum over the points at (b, m); the kernel's arrays
carry a unit axis the reference's do not, which a total sum does not see. Both programs then apply one and the same
tail to the two total sums and the densities. -/

noncomputable section

namespace Cert.Proof.Bridge

open Idealize.ShloMosaic Idealize.ShloMosaic.TcCoe Idealize.SL.Sem
open Idealize.ShloMosaic.ValueIdx Idealize.ShloMosaic.UnitSum
open Cert.Chamfer Cert.KernelIdeal.KValue

variable (m : (ℓ : Loc Cert.KernelIdeal.nD Cert.KernelIdeal.τ Cert.KernelIdeal.sig) → Buf (Elt Ideal) ℓ)

/-- The total sum of the kernel's nearest-target values is the reference's total sum of its minima over the targets. -/
theorem sumX_eq (c : Dev Cert.KernelIdeal.nD) (h0 : AllReal (X0 m c)) (h1 : AllReal (X1 m c)) :
    sumX m c = Cert.ReferenceIdeal.Read.val_main_v16 (F := Ideal) (X0 m c) (X1 m c) := by
  funext i
  rw [sumX_apply, Cert.ReferenceIdeal.Read.val_main_v16_apply]
  refine congrArg₂ (· + ·) rfl (sum_dropLast _ _ fun b n => ?_)
  exact (minx_eq h0 h1 b n).trans (Cert.ReferenceIdeal.RefValue.minOverTargets_apply _ _ b n).symm

/-- The total sum of the kernel's nearest-point values is the reference's total sum of its minima over the points. -/
theorem sumY_eq (c : Dev Cert.KernelIdeal.nD) (h0 : AllReal (X0 m c)) (h1 : AllReal (X1 m c)) :
    sumY m c = Cert.ReferenceIdeal.Read.val_main_v19 (F := Ideal) (X0 m c) (X1 m c) := by
  funext i
  rw [sumY_apply, Cert.ReferenceIdeal.Read.val_main_v19_apply]
  refine congrArg₂ (· + ·) rfl (sum_dropMid _ _ fun b mm => ?_)
  exact (miny_eq h0 h1 b mm).trans (Cert.ReferenceIdeal.RefValue.minOverPoints_apply _ _ b mm).symm

/-- The reference's result is the kernel's. -/
theorem result_eq (c : Dev Cert.KernelIdeal.nD) (h0 : AllReal (X0 m c)) (h1 : AllReal (X1 m c))
    (x2 : FVec Ideal Cert.KernelIdeal.S4x8192 .f32) :
    Cert.ReferenceIdeal.Read.val_main_v28 (F := Ideal) (X0 m c) (X1 m c) x2 = lossOf (sumX m c) (sumY m c) x2 := by
  rw [sumX_eq m c h0 h1, sumY_eq m c h0 h1]
  rfl

end Cert.Proof.Bridge

end
-- ==== Proof.Finite.lean ====
import proofs.«170560_j3298534884131_2_alg».proof.Pre_finite_inputs
import proofs.«170560_j3298534884131_2_alg».proof.Proof.Gen.Pre_finite_inputs
import proofs.«170560_j3298534884131_2_alg».proof.Proof.Spec
import Idealize.ShloMosaic.Lib.ReduceAll
import Idealize.ShloMosaic.PureOps.Ideal.Laws

/-! The precondition decoded: every coordinate of both point clouds is a real number.

The predicate is the conjunction of three `all(|x| < +∞)`; an extended real whose absolute value is below +∞ is
neither of the infinities. -/

noncomputable section

namespace Cert.Pre_finite_inputs.Finite

open Idealize.ShloMosaic Cert.Pre_finite_inputs Cert.Chamfer

instance : Subsingleton S_.Idx := ⟨fun a b => funext fun d => d.elim0⟩

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [MinReduce.posInf_f32] at h
  induction x using EReal.rec with
  | bot => simp [Ideal.cmp] at h
  | top => simp [Ideal.cmp] at h
  | coe r => exact ⟨r, rfl⟩

/-- Where the predicate is all ones, both point clouds are finite. -/
theorem allReal_of_pre (a0 a1 : FVec Ideal S4x8192x3 .f32) (a2 : FVec Ideal S4x8192 .f32)
    (h : fn (F := Ideal) a0 a1 a2 = fun _ => 1#1) : AllReal a0 ∧ AllReal a1 := by
  have e := congrFun h ValueIdx.ix0
  unfold fn at e
  simp only [andi] at e
  rw [IntOp.andi_eq_one, IntOp.andi_eq_one] at e
  obtain ⟨⟨h0, h1⟩, -⟩ := e
  exact ⟨fun i => real_of_abs_lt (a0 i) (Host.reduce_andi_all _ _ _ _ _ h0 i),
    fun i => real_of_abs_lt (a1 i) (Host.reduce_andi_all _ _ _ _ _ h1 i)⟩

end Cert.Pre_finite_inputs.Finite

end
-- ==== Proof.lean ====
/- The kernel computes a chamfer loss between two point clouds plus a density term, in one gridded region and a short host
   tail; the reference computes the same loss from the full clamped distance tensor. At the extended reals, on finite
   inputs, the two results are one number.

   The kernel tiles the points of each batch into 32 tiles of 256 against all 8192 targets. Per tile it forms the cross
   terms −2·⟨p, t⟩ by a contraction, the targets' squared norms by contracting a row of ones against the squares, and the
   points' squared norms by a lane sum. The nearest-target value of a point is the minimum over the targets of (cross +
   |t|²), plus |p|², clamped at zero; the nearest-point value of a target is the minimum over all points of (cross + |p|²),
   accumulated over the 32 tiles as a running minimum started from +∞, plus |t|², clamped at zero, at the last tile. On
   finite coordinates clamping and adding a finite constant commute with a minimum, and each clamped entry is the
   reference's max(|p|² + |t|² − 2⟨p, t⟩, 0); so the kernel's two arrays hold the reference's two arrays of minima, up to a
   unit axis that the total sums do not see. Both programs then take the two means, clip their sum and add a tenth of the
   mean absolute density, by the same operations. -/
import proofs.«170560_j3298534884131_2_alg».proof.Defs
import proofs.«170560_j3298534884131_2_alg».proof.Proof.Gen.Kernel
import proofs.«170560_j3298534884131_2_alg».proof.Proof.Gen.Kernel.Frame
import proofs.«170560_j3298534884131_2_alg».proof.Proof.Gen.KernelIdeal
import proofs.«170560_j3298534884131_2_alg».proof.Proof.Gen.KernelIdeal.Frame
import proofs.«170560_j3298534884131_2_alg».proof.Proof.Gen.ReferenceIdeal
import proofs.«170560_j3298534884131_2_alg».proof.Proof.Gen.ReferenceIdeal.Run
import proofs.«170560_j3298534884131_2_alg».proof.Proof.Gen.ReferenceIdeal.Read
import proofs.«170560_j3298534884131_2_alg».proof.Proof.Gen.Pre_finite_inputs
import proofs.«170560_j3298534884131_2_alg».proof.Proof.KernelRun
import proofs.«170560_j3298534884131_2_alg».proof.Proof.Bridge
import proofs.«170560_j3298534884131_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at the loss of the two total sums: the kernel by its run
    read to the result, the reference by its run, whose two totals are the kernel's on finite clouds. -/
theorem algebraic : Cert.algebraic_KernelIdeal_ReferenceIdeal := by
  intro m ρ m' ρ' hpre hagree
  refine ⟨fun c => Cert.KernelIdeal.KValue.lossOf (Cert.KernelIdeal.KValue.sumX m c) (Cert.KernelIdeal.KValue.sumY m c)
    (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v28_eq]
  obtain ⟨h0, h1⟩ := Cert.Pre_finite_inputs.Finite.allReal_of_pre _ _ _ (hpre c)
  exact Cert.Proof.Bridge.result_eq m c h0 h1 _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
